-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x10 : Shape := ⟨2, ![16384, 10]⟩
abbrev S10x16384 : Shape := ⟨2, ![10, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x10 : S_.BroadcastsInDim S16384x10 (![] : Fin 0 → Fin S16384x10.rank)
  reducesTo_S16384x10_S_d0_1 : S16384x10.ReducesTo [0, 1] S_
  bcast_S_S10x16384 : S_.BroadcastsInDim S10x16384 (![] : Fin 0 → Fin S10x16384.rank)
  reducesTo_S10x16384_S_d0_1 : S10x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16384x64 .f32) (main_arg1 : FVec F S16384x10 .f32) (main_arg2 : FVec F S10x16384 .f32) (main_arg3 : FVec F S64x64 .f32) (main_arg4 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x10 .f32 := Host.absf main_arg1
  let main_cst_0 : FVec F S_ .f32 := constant S_ .f32 0x7F800000#32
  let main_v5 : FVec F S16384x10 .f32 := broadcastInDim S16384x10 ![] bcast_S_S16384x10 main_cst_0
  let main_v6 : IVec S16384x10 1 := cmpf .olt main_v4 main_v5
  let main_c_1 : IVec S_ 1 := constantI S_ 1 1#1
  let main_v7 : IVec S_ 1 := (fun x v => Host.reduce IntOp.andi x v reducesTo_S16384x10_S_d0_1 h_S_) main_v6 main_c_1
  let main_v8 : IVec S_ 1 := andi main_v3 main_v7
  let main_v9 : FVec F S10x16384 .f32 := Host.absf main_arg2
  let main_cst_2 : FVec F S_ .f32 := constant S_ .f32 0x7F800000#32
  let main_v10 : FVec F S10x16384 .f32 := broadcastInDim S10x16384 ![] bcast_S_S10x16384 main_cst_2
  let main_v11 : IVec S10x16384 1 := cmpf .olt main_v9 main_v10
  let main_c_3 : IVec S_ 1 := constantI S_ 1 1#1
  let main_v12 : IVec S_ 1 := (fun x v => Host.reduce IntOp.andi x v reducesTo_S10x16384_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S16384x64 : Shape := ⟨2, ![16384, 64]⟩
abbrev S16384x10 : Shape := ⟨2, ![16384, 10]⟩
abbrev S10x16384 : Shape := ⟨2, ![10, 16384]⟩
abbrev S64x64 : Shape := ⟨2, ![64, 64]⟩
abbrev S64 : Shape := ⟨1, ![64]⟩
abbrev S1x64 : Shape := ⟨2, ![1, 64]⟩
abbrev S256x10 : Shape := ⟨2, ![256, 10]⟩
abbrev S256x64 : Shape := ⟨2, ![256, 64]⟩
abbrev S256x16384 : Shape := ⟨2, ![256, 16384]⟩
abbrev S256 : Shape := ⟨1, ![256]⟩
abbrev S256x1 : Shape := ⟨2, ![256, 1]⟩

abbrev nBuf : Space → Nat
  | .hbm => 12
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S16384x10, .f32⟩
  | .hbm, ⟨2, _⟩ => ⟨S10x16384, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S16384x64, .f32⟩
  | .hbm, ⟨7, _⟩ => ⟨S16384x64, .bf16⟩
  | .hbm, ⟨8, _⟩ => ⟨S10x16384, .bf16⟩
  | .hbm, ⟨9, _⟩ => ⟨S16384x10, .bf16⟩
  | .hbm, ⟨10, _⟩ => ⟨S1x64, .f32⟩
  | .hbm, ⟨11, _⟩ => ⟨S16384x64, .f32⟩
  | .local _ .vmem, ⟨0, _⟩ => ⟨S256x10, .bf16⟩
  | .local _ .vmem, ⟨1, _⟩ => ⟨S256x10, .bf16⟩
  | .local _ .vmem, ⟨2, _⟩ => ⟨S10x16384, .bf16⟩
  | .local _ .vmem, ⟨3, _⟩ => ⟨S16384x64, .bf16⟩
  | .local _ .vmem, ⟨4, _⟩ => ⟨S1x64, .f32⟩
  | .local _ .vmem, ⟨5, _⟩ => ⟨S256x64, .f32⟩
  | .local _ .vmem, ⟨6, _⟩ => ⟨S256x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x64_S64x64_1_0 : S64x64.Transposes [1, 0] S64x64
  bitsLt_bf16_f32 : FTy.bits .bf16 < FTy.bits .f32
  shapeCasts_S64_S1x64 : S64.ShapeCasts S1x64
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S10x16384_S10x16384_0_0 : ∀ a, (![0, 0] : Fin 2 → Nat) a + S10x16384.size a ≤ S10x16384.size a
  h_S10x16384 : 0 < S10x16384.numel
  shapeCasts_S10x16384_S10x16384 : S10x16384.ShapeCasts S10x16384
  reduces_S256x16384_S256 : S256x16384.Reduces [1] S256
  shapeCasts_S256_S256x1 : S256.ShapeCasts S256x1
  broadcasts_S256x1_S256x16384 : S256x1.Broadcasts S256x16384
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  broadcasts_S256x1_S256x64 : S256x1.Broadcasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S16384x64_S64x64_S16384x64_1_0_0_1_n_n_wf : DotDims.WF S16384x64 S64x64 S16384x64 [1] [0] [0] [1] [] []
  dot_S256x10_S10x16384_S256x16384_1_0_0_1_n_n_wf : DotDims.WF S256x10 S10x16384 S256x16384 [1] [0] [0] [1] [] []
  dot_S256x16384_S16384x64_S256x64_1_0_0_1_n_n_wf : DotDims.WF S256x16384 S16384x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10.size a ≤ S16384x10.size a
  hwx0_0 : ∀ i : grid0.Coords, EltTy.bits .bf16 = 32 ∨ (Rect.block (s := S16384x10) S256x10.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16384.size a ≤ S10x16384.size a
  hwx0_1 : ∀ i : grid0.Coords, EltTy.bits .bf16 = 32 ∨ (Rect.block (s := S10x16384) S10x16384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S16384x64.size a
  hwx0_2 : ∀ i : grid0.Coords, EltTy.bits .bf16 = 32 ∨ (Rect.block (s := S16384x64) S16384x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S16384x64.size a
  hwx0_4 : ∀ i : grid0.Coords, EltTy.bits .f32 = 32 ∨ (Rect.block (s := S16384x64) S256x64.size (cc0_transform_4 i) (hinb0_4 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S256x10_S10x16384_S256x16384_1_0_0_1_n_n : DotDims S256x10 S10x16384 S256x16384 where
  lhsContracting := [1]
  rhsContracting := [0]
  lhsNonContracting := [0]
  rhsNonContracting := [1]
  lhsBatch := []
  rhsBatch := []
  wf := dot_S256x10_S10x16384_S256x16384_1_0_0_1_n_n_wf
def dot_S256x16384_S16384x64_S256x64_1_0_0_1_n_n : DotDims S256x16384 S16384x64 S256x64 where
  lhsContracting := [1]
  rhsContracting := [0]
  lhsNonContracting := [0]
  rhsNonContracting := [1]
  lhsBatch := []
  rhsBatch := []
  wf := dot_S256x16384_S16384x64_S256x64_1_0_0_1_n_n_wf

abbrev win0_0 : Pipeline.Window sig grid0 :=
  Pipeline.Window.ofSpec (Memref.whole main_v4) S256x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S10x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x10 : Shape := ⟨2, ![16384, 10]⟩
abbrev S10x16384 : Shape := ⟨2, ![10, 16384]⟩
abbrev S64x64 : Shape := ⟨2, ![64, 64]⟩
abbrev S64 : Shape := ⟨1, ![64]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x10, .f32⟩
  | .hbm, ⟨2, _⟩ => ⟨S10x16384, .f32⟩
  | .hbm, ⟨3, _⟩ => ⟨S64x64, .f32⟩
  | .hbm, ⟨4, _⟩ => ⟨S64, .f32⟩
  | .hbm, ⟨5, _⟩ => ⟨S16384x16384, .f32⟩
  | .hbm, ⟨6, _⟩ => ⟨S_, .f32⟩
  | .hbm, ⟨7, _⟩ => ⟨S16384x16384, .f32⟩
  | .hbm, ⟨8, _⟩ => ⟨S16384x16384, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x16384, .f32⟩
  | .hbm, ⟨22, _⟩ => ⟨S16384x16384, .f32⟩
  | .hbm, ⟨23, _⟩ => ⟨S16384x64, .f32⟩
  | .hbm, ⟨24, _⟩ => ⟨S64x64, .f32⟩
  | .hbm, ⟨25, _⟩ => ⟨S16384x64, .f32⟩
  | .hbm, ⟨26, _⟩ => ⟨S1x64, .f32⟩
  | .hbm, ⟨27, _⟩ => ⟨S16384x64, .f32⟩
  | .hbm, ⟨28, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  transposes_S64x64_S64x64_1_0 : S64x64.Transposes [1, 0] S64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x10_S10x16384_S16384x16384_1_0_0_1_n_n_wf : DotDims.WF S16384x10 S10x16384 S16384x16384 [1] [0] [0] [1] [] []
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x10_S10x16384_S16384x16384_1_0_0_1_n_n : DotDims S16384x10 S10x16384 S16384x16384 where
  lhsContracting := [1]
  rhsContracting := [0]
  lhsNonContracting := [0]
  rhsNonContracting := [1]
  lhsBatch := []
  rhsBatch := []
  wf := dot_S16384x10_S10x16384_S16384x16384_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.BlockBody.lean ====
/-
  One grid point's arithmetic, read entry by entry over the extended reals.

  At a grid point the body holds a block of 256 source rows (x0, [256, 10]), the whole target matrix
  (x1, [10, 16384]), the whole value matrix (x2, [16384, 64]) and the bias as a row (x3, [1, 64]).  It forms the
  256 x 16384 scores x0 x1, rectifies them, takes each row's maximum, exponentiates the shifted scores, sums each row,
  multiplies the unnormalised weights into the values, divides each row by its sum and adds the bias.  Each stage is
  named here and read at an index; the stored value is their composition.
-/
import proofs.«136184_j455266533808_2_alg».proof.Proof.Gen.KernelIdeal.Skeleton
import proofs.«136184_j455266533808_2_alg».proof.Proof.LibHostMaxForms
import proofs.«136184_j455266533808_2_alg».proof.Proof.LibColumnForms
import Idealize.ShloMosaic.Lib.ValueLayout
import Idealize.ShloMosaic.Lib.ValueIdx
import Idealize.ShloMosaic.Lib.Pipeline.Value
import Idealize.ShloMosaic.PureOps.Ideal.Laws

noncomputable section

namespace Cert.GraphConv.Body

open Idealize.ShloMosaic Idealize.ShloMosaic.ValueIdx Idealize.ShloMosaic.ValueLayout
open Cert.KernelIdeal Cert.KernelIdeal.Gen

variable (x0 : FVec Ideal S256x10 .bf16) (x1 : FVec Ideal S10x16384 .bf16) (x2 : FVec Ideal S16384x64 .bf16)
  (x3 : FVec Ideal S1x64 .f32)

/-! ## The stages -/

/-- The block's scores: the product of the source rows with the target matrix. -/
def scores : FVec Ideal S256x16384 .f32 :=
  matmul dot_S256x10_S10x16384_S256x16384_1_0_0_1_n_n none (shapeCast S256x10 x0 shapeCasts_S256x10_S256x10)
    (shapeCast S10x16384 x1 shapeCasts_S10x16384_S10x16384) (constant S256x16384 .f32 0x00000000#32)

/-- The rectified scores. -/
def acts : FVec Ideal S256x16384 .f32 :=
  maximumf (scores x0 x1) (broadcast S256x16384 (Scalar.ofBits .f32 0x00000000#32))

/-- Each row's largest rectified score. -/
def rmax : FVec Ideal S256 .f32 :=
  multiReduction .maximumf [1] S256 (acts x0 x1) 0xFF800000#32 reduces_S256x16384_S256 (.inl rfl) rfl

/-- The unnormalised weights: exponentials of the rectified scores shifted by their row's maximum. -/
def wts : FVec Ideal S256x16384 .f32 :=
  exp (subf (acts x0 x1) (broadcastTo S256x16384 (shapeCast S256x1 (rmax x0 x1) shapeCasts_S256_S256x1)
    broadcasts_S256x1_S256x16384))

/-- Each row's sum of weights. -/
def rsum : FVec Ideal S256 .f32 :=
  multiReduction .add [1] S256 (wts x0 x1) 0x00000000#32 reduces_S256x16384_S256 (.inl rfl) rfl

/-- The weights multiplied into the value matrix. -/
def agg : FVec Ideal S256x64 .f32 :=
  matmul dot_S256x16384_S16384x64_S256x64_1_0_0_1_n_n none (truncf .bf16 (wts x0 x1) bitsLt_bf16_f32)
    (shapeCast S16384x64 x2 shapeCasts_S16384x64_S16384x64) (constant S256x64 .f32 0x00000000#32)

/-- The stored value is the aggregate divided row by row by the sums, plus the bias row. -/
theorem pay_eq : k0_pay1 (F := Ideal) x0 x1 x2 x3
    = addf (divf (agg x0 x1 x2) (broadcastTo S256x64 (shapeCast S256x1 (rsum x0 x1) shapeCasts_S256_S256x1)
        broadcasts_S256x1_S256x64))
      (broadcastTo S256x64 (shapeCast S1x64 x3 shapeCasts_S1x64_S1x64) broadcasts_S1x64_S256x64) := rfl

/-! ## Each stage at an index -/

theorem lhs_scores_0 (i : S256x16384.Idx) (q : dot_S256x10_S10x16384_S256x16384_1_0_0_1_n_n.contr.Idx) :
    (dot_S256x10_S10x16384_S256x16384_1_0_0_1_n_n.lhsIdx i q 0).val = (i 0).val := by
  unfold DotDims.lhsIdx
  rw [dif_neg (show ¬(0 : Fin S256x10.rank) ∈ dot_S256x10_S10x16384_S256x16384_1_0_0_1_n_n.lhsBatch by decide),
    dif_pos (show (0 : Fin S256x10.rank) ∈ dot_S256x10_S10x16384_S256x16384_1_0_0_1_n_n.lhsNonContracting by decide)]
  rfl

theorem rhs_scores_1 (i : S256x16384.Idx) (q : dot_S256x10_S10x16384_S256x16384_1_0_0_1_n_n.contr.Idx) :
    (dot_S256x10_S10x16384_S256x16384_1_0_0_1_n_n.rhsIdx i q 1).val = (i 1).val := by
  unfold DotDims.rhsIdx
  rw [dif_neg (show ¬(1 : Fin S10x16384.rank) ∈ dot_S256x10_S10x16384_S256x16384_1_0_0_1_n_n.rhsBatch by decide),
    dif_pos (show (1 : Fin S10x16384.rank) ∈ dot_S256x10_S10x16384_S256x16384_1_0_0_1_n_n.rhsNonContracting by decide)]
  rfl

/-- A score is the inner product of a source row with a target column. -/
theorem scores_apply (p : Fin 256) (j : Fin 16384) :
    scores x0 x1 (ix2 p j) = ∑ k : Fin 10, x0 (ix2 p k) * x1 (ix2 k j) := by
  unfold scores
  simp only [matmul]
  rw [Ideal.matmul_constant_zero_apply,
    ← Equiv.sum_comp (contrEquiv1 dot_S256x10_S10x16384_S256x16384_1_0_0_1_n_n 10 rfl rfl).symm]
  refine Finset.sum_congr rfl fun k _ => ?_
  have hk := contrEquiv1_symm_val dot_S256x10_S10x16384_S256x16384_1_0_0_1_n_n 10 rfl rfl k
  have el : dot_S256x10_S10x16384_S256x16384_1_0_0_1_n_n.lhsIdx (ix2 p j)
      ((contrEquiv1 dot_S256x10_S10x16384_S256x16384_1_0_0_1_n_n 10 rfl rfl).symm k) = ix2 p k :=
    funext fun a => Fin.ext (by
      match a with
      | ⟨0, _⟩ => exact lhs_scores_0 _ _
      | ⟨1, _⟩ => exact (dot_S256x10_S10x16384_S256x16384_1_0_0_1_n_n.lhsIdx_val_of_single rfl _ _).trans hk)
  have er : dot_S256x10_S10x16384_S256x16384_1_0_0_1_n_n.rhsIdx (ix2 p j)
      ((contrEquiv1 dot_S256x10_S10x16384_S256x16384_1_0_0_1_n_n 10 rfl rfl).symm k) = ix2 k j :=
    funext fun a => Fin.ext (by
      match a with
      | ⟨0, _⟩ => exact (dot_S256x10_S10x16384_S256x16384_1_0_0_1_n_n.rhsIdx_val_of_single rfl _ _).trans hk
      | ⟨1, _⟩ => exact rhs_scores_1 _ _)
  rw [el, er, shapeCast_self, shapeCast_self]

/-- A rectified score is the larger of the score and zero. -/
theorem acts_apply (p : Fin 256) (j : Fin 16384) :
    acts x0 x1 (ix2 p j) = max (scores x0 x1 (ix2 p j)) 0 := by
  show max (scores x0 x1 (ix2 p j)) (Ideal.ofBits .f32 0x00000000#32) = _
  rw [Ideal.ofBits_zero_f32]

/-- A row's maximum is the fold of max over its 16384 rectified scores, from the bottom element. -/
theorem rmax_apply (p : Fin 256) :
    rmax x0 x1 (ix1 p) = (Finset.univ : Finset (Fin 16384)).fold max ⊥ fun j => acts x0 x1 (ix2 p j) := by
  unfold rmax
  refine (Ideal.multiReduction_maximumf_single (acts x0 x1) 0xFF800000#32 reduces_S256x16384_S256 (.inl rfl) rfl
    (ix1 p)).trans ?_
  show (Finset.univ : Finset (Fin 16384)).fold max (Ideal.ofBits .f32 0xFF800000#32)
    (fun k => acts x0 x1 (reduces_S256x16384_S256.lift (ix1 p) k)) = _
  have hb : Ideal.ofBits .f32 0xFF800000#32 = ⊥ := by simp [Ideal.ofBits, Ideal.ieee]
  rw [hb]
  exact congrArg (fun f : Fin 16384 → EReal => (Finset.univ : Finset (Fin 16384)).fold max ⊥ f)
    (funext fun k => congrArg (acts x0 x1) (lift2_last reduces_S256x16384_S256 p k))

/-- A weight is the exponential of the rectified score less its row's maximum. -/
theorem wts_apply (p : Fin 256) (j : Fin 16384) :
    wts x0 x1 (ix2 p j) = Ideal.exp (acts x0 x1 (ix2 p j) - rmax x0 x1 (ix1 p)) := by
  show Ideal.exp (acts x0 x1 (ix2 p j) - broadcastTo S256x16384 (shapeCast S256x1 (rmax x0 x1) shapeCasts_S256_S256x1)
    broadcasts_S256x1_S256x16384 (ix2 p j)) = _
  rw [broadcastTo_a1_ab_apply, shapeCast_a_a1_apply]

/-- A row's sum runs over its 16384 weights. -/
theorem rsum_apply (p : Fin 256) : rsum x0 x1 (ix1 p) = ∑ j : Fin 16384, wts x0 x1 (ix2 p j) := by
  unfold rsum
  refine (Ideal.multiReduction_add_single (wts x0 x1) 0x00000000#32 reduces_S256x16384_S256 (.inl rfl) rfl
    (ix1 p)).trans ?_
  show ∑ k : Fin 16384, wts x0 x1 (reduces_S256x16384_S256.lift (ix1 p) k) = _
  exact Finset.sum_congr rfl fun k _ => congrArg (wts x0 x1) (lift2_last reduces_S256x16384_S256 p k)

theorem lhs_agg_0 (i : S256x64.Idx) (q : dot_S256x16384_S16384x64_S256x64_1_0_0_1_n_n.contr.Idx) :
    (dot_S256x16384_S16384x64_S256x64_1_0_0_1_n_n.lhsIdx i q 0).val = (i 0).val := by
  unfold DotDims.lhsIdx
  rw [dif_neg (show ¬(0 : Fin S256x16384.rank) ∈ dot_S256x16384_S16384x64_S256x64_1_0_0_1_n_n.lhsBatch by decide),
    dif_pos (show (0 : Fin S256x16384.rank) ∈ dot_S256x16384_S16384x64_S256x64_1_0_0_1_n_n.lhsNonContracting by decide)]
  rfl

theorem rhs_agg_1 (i : S256x64.Idx) (q : dot_S256x16384_S16384x64_S256x64_1_0_0_1_n_n.contr.Idx) :
    (dot_S256x16384_S16384x64_S256x64_1_0_0_1_n_n.rhsIdx i q 1).val = (i 1).val := by
  unfold DotDims.rhsIdx
  rw [dif_neg (show ¬(1 : Fin S16384x64.rank) ∈ dot_S256x16384_S16384x64_S256x64_1_0_0_1_n_n.rhsBatch by decide),
    dif_pos (show (1 : Fin S16384x64.rank) ∈ dot_S256x16384_S16384x64_S256x64_1_0_0_1_n_n.rhsNonContracting by decide)]
  rfl

/-- An aggregate entry sums, over the 16384 nodes, the weight times the node's value. -/
theorem agg_apply (p : Fin 256) (q : Fin 64) :
    agg x0 x1 x2 (ix2 p q) = ∑ j : Fin 16384, wts x0 x1 (ix2 p j) * x2 (ix2 j q) := by
  unfold agg
  simp only [matmul]
  rw [Ideal.matmul_constant_zero_apply,
    ← Equiv.sum_comp (contrEquiv1 dot_S256x16384_S16384x64_S256x64_1_0_0_1_n_n 16384 rfl rfl).symm]
  refine Finset.sum_congr rfl fun k _ => ?_
  have hk := contrEquiv1_symm_val dot_S256x16384_S16384x64_S256x64_1_0_0_1_n_n 16384 rfl rfl k
  have el : dot_S256x16384_S16384x64_S256x64_1_0_0_1_n_n.lhsIdx (ix2 p q)
      ((contrEquiv1 dot_S256x16384_S16384x64_S256x64_1_0_0_1_n_n 16384 rfl rfl).symm k) = ix2 p k :=
    funext fun a => Fin.ext (by
      match a with
      | ⟨0, _⟩ => exact lhs_agg_0 _ _
      | ⟨1, _⟩ => exact (dot_S256x16384_S16384x64_S256x64_1_0_0_1_n_n.lhsIdx_val_of_single rfl _ _).trans hk)
  have er : dot_S256x16384_S16384x64_S256x64_1_0_0_1_n_n.rhsIdx (ix2 p q)
      ((contrEquiv1 dot_S256x16384_S16384x64_S256x64_1_0_0_1_n_n 16384 rfl rfl).symm k) = ix2 k q :=
    funext fun a => Fin.ext (by
      match a with
      | ⟨0, _⟩ => exact (dot_S256x16384_S16384x64_S256x64_1_0_0_1_n_n.rhsIdx_val_of_single rfl _ _).trans hk
      | ⟨1, _⟩ => exact rhs_agg_1 _ _)
  rw [el, er, shapeCast_self]
  rfl

/-! ## The stored value at an index -/

/-- The rectified score of block row p against node j, from the loaded blocks. -/
def bact (p : Fin 256) (j : Fin 16384) : EReal := max (∑ k : Fin 10, x0 (ix2 p k) * x1 (ix2 k j)) 0

/-- The weight of node j in block row p, from the loaded blocks. -/
def bwt (p : Fin 256) (j : Fin 16384) : EReal :=
  Ideal.exp (bact x0 x1 p j - (Finset.univ : Finset (Fin 16384)).fold max ⊥ fun j' => bact x0 x1 p j')

theorem acts_eq (p : Fin 256) (j : Fin 16384) : acts x0 x1 (ix2 p j) = bact x0 x1 p j := by
  rw [acts_apply, scores_apply]; rfl

theorem wts_eq (p : Fin 256) (j : Fin 16384) : wts x0 x1 (ix2 p j) = bwt x0 x1 p j := by
  rw [wts_apply, rmax_apply, acts_eq]
  unfold bwt
  exact congrArg (fun f : Fin 16384 → EReal => Ideal.exp (bact x0 x1 p j - (Finset.univ : Finset (Fin 16384)).fold max ⊥ f))
    (funext fun j' => acts_eq x0 x1 p j')

/-- The value stored at (p, q): the weighted sum of the values' column q, divided by the row's sum of weights, plus
    the bias at q. -/
theorem pay_apply (p : Fin 256) (q : Fin 64) :
    k0_pay1 (F := Ideal) x0 x1 x2 x3 (ix2 p q)
      = Ideal.div (∑ j : Fin 16384, bwt x0 x1 p j * x2 (ix2 j q)) (∑ j : Fin 16384, bwt x0 x1 p j)
        + x3 (ix2 (0 : Fin 1) q) := by
  rw [pay_eq, addf_apply, divf_apply, broadcastTo_a1_ab_apply, shapeCast_a_a1_apply, broadcastTo_1b_ab_apply, shapeCast_self, agg_apply, rsum_apply]
  simp only [wts_eq]

end Cert.GraphConv.Body

end
-- ==== Proof.Spec.lean ====
/-
  The mathematics of a graph convolution with a learned adjacency, over the extended reals.

  For node features x [16384, 64], source and target embeddings src [16384, 10], tgt [10, 16384], a weight
  matrix W [64, 64] and a bias b [64]:
    score i j  = sum over k of src (i, k) * tgt (k, j)
    act i j    = max (score i j) 0
    rowMax i   = the maximum over j of act i j (folded from the bottom element)
    weight i j = exp (act i j - rowMax i)
    rowSum i   = sum over j of weight i j
  The row-normalised weights weight i j / rowSum i are the adjacency.  The output at (i, o) is written in two
  arrangements.  `folded` multiplies the unnormalised weights into the precomputed product x Wᵀ and divides
  the aggregate once; `unfolded` normalises first, aggregates x, then applies Wᵀ.  They agree when every entry
  of x, src, tgt and W is a real number (FoldLaw.lean).
-/
import Idealize.ShloMosaic.PureOps.Ideal.Laws
import Idealize.ShloMosaic.Lib.ValueIdx

noncomputable section

namespace Cert.GraphConv

open Idealize.ShloMosaic Idealize.ShloMosaic.ValueIdx

/-- A matrix of extended reals with literal extents. -/
abbrev Mat (a b : ℕ) := (⟨2, ![a, b]⟩ : Shape).Idx → EReal
/-- A vector of extended reals with a literal extent. -/
abbrev Vc (a : ℕ) := (⟨1, ![a]⟩ : Shape).Idx → EReal

/-- The inner product of source row i and target column j. -/
def score (src : Mat 16384 10) (tgt : Mat 10 16384) (i j : Fin 16384) : EReal :=
  ∑ k : Fin 10, src (ix2 i k) * tgt (ix2 k j)

/-- The rectified score. -/
def act (src : Mat 16384 10) (tgt : Mat 10 16384) (i j : Fin 16384) : EReal :=
  max (score src tgt i j) 0

/-- The largest rectified score of row i. -/
def rowMax (src : Mat 16384 10) (tgt : Mat 10 16384) (i : Fin 16384) : EReal :=
  (Finset.univ : Finset (Fin 16384)).fold max ⊥ fun j => act src tgt i j

/-- The unnormalised softmax weight: the exponential of the rectified score shifted by its row's maximum. -/
def weight (src : Mat 16384 10) (tgt : Mat 10 16384) (i j : Fin 16384) : EReal :=
  Ideal.exp (act src tgt i j - rowMax src tgt i)

/-- The normaliser of row i. -/
def rowSum (src : Mat 16384 10) (tgt : Mat 10 16384) (i : Fin 16384) : EReal :=
  ∑ j : Fin 16384, weight src tgt i j

/-- Row j of x Wᵀ at column o. -/
def proj (x : Mat 16384 64) (W : Mat 64 64) (j : Fin 16384) (o : Fin 64) : EReal :=
  ∑ f : Fin 64, x (ix2 j f) * W (ix2 o f)

/-- The output with the linear map folded into the values: aggregate x Wᵀ by the unnormalised weights, divide by the
    row's normaliser, add the bias. -/
def folded (x : Mat 16384 64) (src : Mat 16384 10) (tgt : Mat 10 16384) (W : Mat 64 64) (b : Vc 64)
    (i : Fin 16384) (o : Fin 64) : EReal :=
  Ideal.div (∑ j : Fin 16384, weight src tgt i j * proj x W j o) (rowSum src tgt i) + b (ix1 o)

/-- The output as written: normalise the weights, aggregate x, apply Wᵀ, add the bias. -/
def unfolded (x : Mat 16384 64) (src : Mat 16384 10) (tgt : Mat 10 16384) (W : Mat 64 64) (b : Vc 64)
    (i : Fin 16384) (o : Fin 64) : EReal :=
  (∑ f : Fin 64, (∑ j : Fin 16384, Ideal.div (weight src tgt i j) (rowSum src tgt i) * x (ix2 j f)) * W (ix2 o f))
    + b (ix1 o)

/-- The f32 pattern of minus infinity denotes the bottom element. -/
theorem ofBits_neg_inf : Ideal.ofBits .f32 0xFF800000#32 = ⊥ := by simp [Ideal.ofBits, Ideal.ieee]

end Cert.GraphConv

end
-- ==== Proof.KernelValue.lean ====
/-
  The kernel's result array as one function of the argument arrays.

  Before the grid runs, the host forms the value matrix x Wᵀ, narrows the two embeddings and the value matrix (the
  identity on extended reals) and lays the bias out as a row.  Grid point t reads rows 256 t … 256 t + 255 of the source
  embedding, and the whole target embedding, value matrix and bias row; it writes rows 256 t … 256 t + 255 of the result.
  Row i of the result is therefore `folded` at i, for every one of the 16384 rows: the 64 row blocks tile the array.
-/
import proofs.«136184_j455266533808_2_alg».proof.Proof.Gen.KernelIdeal.Value
import proofs.«136184_j455266533808_2_alg».proof.Proof.BlockBody
import proofs.«136184_j455266533808_2_alg».proof.Proof.Spec
import Idealize.ShloMosaic.Lib.Pipeline.Value
import Idealize.ShloMosaic.Lib.ValueLayout
import Idealize.ShloMosaic.Lib.StableHlo.Run
import Idealize.ShloMosaic.PureOps.Ideal.Laws

noncomputable section

namespace Cert.GraphConv.Kernel

open Idealize.ShloMosaic Idealize.ShloMosaic.TcCoe Idealize.SL.Sem Idealize.ShloMosaic.ValueIdx
open Idealize.ShloMosaic.Pipeline (Dat)
open Cert.KernelIdeal Cert.KernelIdeal.Gen Cert.GraphConv

variable (m : (ℓ : Loc nD τ sig) → Buf (Elt Ideal) ℓ) (ρ : Dev nD → PrngReg)

/-! ## The argument arrays, and what the host prepares from them -/

/-- Node features x. -/
abbrev argX (c : Dev nD) : Mat 16384 64 := m ((c : Thread nD τ).loc main_arg0)
/-- Source embeddings. -/
abbrev argSrc (c : Dev nD) : Mat 16384 10 := m ((c : Thread nD τ).loc main_arg1)
/-- Target embeddings. -/
abbrev argTgt (c : Dev nD) : Mat 10 16384 := m ((c : Thread nD τ).loc main_arg2)
/-- The weight matrix W. -/
abbrev argW (c : Dev nD) : Mat 64 64 := m ((c : Thread nD τ).loc main_arg3)
/-- The bias b. -/
abbrev argB (c : Dev nD) : Vc 64 := m ((c : Thread nD τ).loc main_arg4)

/-- The source embeddings reach the grid narrowed, which changes no extended real. -/
theorem entry_src (c : Dev nD) :
    V m c main_v4 = (truncf .bf16 (argSrc m c : FVec Ideal S16384x10 .f32) bitsLt_bf16_f32 : FVec Ideal S16384x10 .bf16) := by
  dsimp only [Gen.V, Gen.hostOps0]; after_results <;> rfl

/-- Likewise the target embeddings. -/
theorem entry_tgt (c : Dev nD) :
    V m c main_v3 = (truncf .bf16 (argTgt m c : FVec Ideal S10x16384 .f32) bitsLt_bf16_f32 : FVec Ideal S10x16384 .bf16) := by
  dsimp only [Gen.V, Gen.hostOps0]; after_results <;> rfl

/-- The value matrix is the product of x with the transpose of W, narrowed. -/
theorem entry_val (c : Dev nD) :
    V m c main_v2 = (truncf .bf16 (Host.dotGeneral (F := Ideal) (φ₁ := .f32) (φ₂ := .f32)
      dot_S16384x64_S64x64_S16384x64_1_0_0_1_n_n none (argX m c)
      (transpose S64x64 [1, 0] (argW m c) transposes_S64x64_S64x64_1_0)) bitsLt_bf16_f32 : FVec Ideal S16384x64 .bf16) := by
  dsimp only [Gen.V, Gen.hostOps0]; after_results <;> rfl

/-- The bias reaches the grid as a row. -/
theorem entry_bias (c : Dev nD) :
    V m c main_v5 = (shapeCast S1x64 (argB m c : FVec Ideal S64 .f32) shapeCasts_S64_S1x64 : FVec Ideal S1x64 .f32) := by
  dsimp only [Gen.V, Gen.hostOps0]; after_results <;> rfl

theorem src_at (c : Dev nD) (i : Fin 16384) (k : Fin 10) :
    (V m c main_v4 : FVec Ideal S16384x10 .bf16) (ix2 i k) = argSrc m c (ix2 i k) := by
  rw [entry_src]; rfl

theorem tgt_at (c : Dev nD) (k : Fin 10) (j : Fin 16384) :
    (V m c main_v3 : FVec Ideal S10x16384 .bf16) (ix2 k j) = argTgt m c (ix2 k j) := by
  rw [entry_tgt]; rfl

theorem bias_at (c : Dev nD) (o : Fin 64) :
    (V m c main_v5 : FVec Ideal S1x64 .f32) (ix2 (0 : Fin 1) o) = argB m c (ix1 o) := by
  rw [entry_bias]
  exact shapeCast_a_1a_apply _ _ _ _

theorem lhs_val_0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide),
    dif_pos (show (0 : Fin S16384x64.rank) ∈ dot_S16384x64_S64x64_S16384x64_1_0_0_1_n_n.lhsNonContracting by decide)]
  rfl

theorem rhs_val_1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide),
    dif_pos (show (1 : Fin S64x64.rank) ∈ dot_S16384x64_S64x64_S16384x64_1_0_0_1_n_n.rhsNonContracting by decide)]
  rfl

/-- The value matrix at (j, o) is row j of x against row o of W. -/
theorem val_at (c : Dev nD) (j : Fin 16384) (o : Fin 64) :
    (V m c main_v2 : FVec Ideal S16384x64 .bf16) (ix2 j o) = proj (argX m c) (argW m c) j o := by
  rw [entry_val]
  show Host.dotGeneral (F := Ideal) (φ₁ := .f32) (φ₂ := .f32) dot_S16384x64_S64x64_S16384x64_1_0_0_1_n_n none
    (argX m c) (transpose S64x64 [1, 0] (argW m c) transposes_S64x64_S64x64_1_0) (ix2 j o) = _
  simp only [Host.dotGeneral]
  rw [Ideal.dotGeneral_apply,
    ← Equiv.sum_comp (contrEquiv1 dot_S16384x64_S64x64_S16384x64_1_0_0_1_n_n 64 rfl rfl).symm]
  unfold proj
  refine Finset.sum_congr rfl fun f _ => ?_
  have hk := contrEquiv1_symm_val dot_S16384x64_S64x64_S16384x64_1_0_0_1_n_n 64 rfl rfl f
  have el : dot_S16384x64_S64x64_S16384x64_1_0_0_1_n_n.lhsIdx (ix2 j o)
      ((contrEquiv1 dot_S16384x64_S64x64_S16384x64_1_0_0_1_n_n 64 rfl rfl).symm f) = ix2 j f :=
    funext fun a => Fin.ext (by
      match a with
      | ⟨0, _⟩ => exact lhs_val_0 _ _
      | ⟨1, _⟩ => exact (dot_S16384x64_S64x64_S16384x64_1_0_0_1_n_n.lhsIdx_val_of_single rfl _ _).trans hk)
  have er : dot_S16384x64_S64x64_S16384x64_1_0_0_1_n_n.rhsIdx (ix2 j o)
      ((contrEquiv1 dot_S16384x64_S64x64_S16384x64_1_0_0_1_n_n 64 rfl rfl).symm f) = ix2 f o :=
    funext fun a => Fin.ext (by
      match a with
      | ⟨0, _⟩ => exact (dot_S16384x64_S64x64_S16384x64_1_0_0_1_n_n.rhsIdx_val_of_single rfl _ _).trans hk
      | ⟨1, _⟩ => exact rhs_val_1 _ _)
  rw [el, er, transpose_ix2_apply]

/-! ## One grid point's block of the result -/

/-- If the loaded blocks are rows 256 T … of the source embedding, the target embedding, the value matrix x Wᵀ and the
    bias row, then the stored value at (p, q) is `folded` at row 256 T + p and column q. -/
theorem block_value (x : Mat 16384 64) (src : Mat 16384 10) (tgt : Mat 10 16384) (W : Mat 64 64) (b : Vc 64)
    (x0 : FVec Ideal S256x10 .bf16) (x1 : FVec Ideal S10x16384 .bf16) (x2 : FVec Ideal S16384x64 .bf16)
    (x3 : FVec Ideal S1x64 .f32) (T : ℕ) (hT : T < 64)
    (h0 : ∀ (p : Fin 256) (k : Fin 10), x0 (ix2 p k) = src (ix2 (⟨256 * T + p.val, by omega⟩ : Fin 16384) k))
    (h1 : ∀ (k : Fin 10) (j : Fin 16384), x1 (ix2 k j) = tgt (ix2 k j))
    (h2 : ∀ (j : Fin 16384) (o : Fin 64), x2 (ix2 j o) = proj x W j o)
    (h3 : ∀ o : Fin 64, x3 (ix2 (0 : Fin 1) o) = b (ix1 o))
    (p : Fin 256) (q : Fin 64) :
    k0_pay1 (F := Ideal) x0 x1 x2 x3 (ix2 p q)
      = folded x src tgt W b (⟨256 * T + p.val, by omega⟩ : Fin 16384) q := by
  rw [Body.pay_apply]
  have hw : ∀ j : Fin 16384, Body.bwt x0 x1 p j = weight src tgt (⟨256 * T + p.val, by omega⟩ : Fin 16384) j := by
    intro j
    unfold Body.bwt Body.bact weight rowMax act score
    simp only [h0, h1]
  unfold folded rowSum
  simp only [hw, h2, h3]

/-! ## The index maps over the grid -/

theorem hz : (![0, 0] : Fin 2 → Nat) = fun _ => 0 := funext fun a => by fin_cases a <;> rfl

/-- The source window and the result window sit at block row t; the other three windows never move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The result as one array: row i, column o holds `folded` of the argument arrays. -/
def G (c : Dev nD) : S16384x64.Idx → EReal := fun i =>
  folded (argX m c) (argSrc m c) (argTgt m c) (argW m c) (argB m c) (i 0) (i 1)

/-- What grid point t writes back is block t of `G`. -/
theorem flushed_eq (c : Dev nD) (t : Fin cfg0.N) :
    (dats m 0 c).flushed 4 t = ((cfg0.win 4).blk t).view.read (Elt Ideal) (G m c) := by
  rw [Cert.KernelIdeal.Value.flushed4]
  unfold out0_4
  rw [View.canon_unit_zero hz]
  simp only [View.ld_unit_zero (S := S256x10) hz, View.ld_unit_zero (S := S10x16384) hz,
    View.ld_unit_zero (S := S16384x64) hz, View.ld_unit_zero (S := S1x64) hz]
  obtain ⟨e00, e01, e10, e11, e20, e21, e30, e31, e40, e41⟩ := idx_facts t
  have hN : cfg0.N = 64 := N_0
  have ht : t.val < 64 := hN ▸ t.isLt
  funext y
  obtain ⟨p, q, rfl⟩ : ∃ (p : Fin 256) (q : Fin 64), y = ix2 p q := ⟨y 0, y 1, eq_ix2 y⟩
  show k0_pay1 (F := Ideal) (iblk m c 0 t) (iblk m c 1 t) (iblk m c 2 t) (iblk m c 3 t) (ix2 p q)
    = G m c (((cfg0.win 4).blk t).view.emb (ix2 p q))
  refine (block_value (argX m c) (argSrc m c) (argTgt m c) (argW m c) (argB m c)
    (iblk m c 0 t) (iblk m c 1 t) (iblk m c 2 t) (iblk m c 3 t) t.val ht ?_ ?_ ?_ ?_ p q).trans ?_
  · intro p' k
    show (V m c main_v4 : FVec Ideal S16384x10 .bf16) (((cfg0.win 0).blk t).view.emb (ix2 p' k)) = _
    refine Eq.trans (congrArg (V m c main_v4 : FVec Ideal S16384x10 .bf16) ?_) (src_at m c _ k)
    funext a; apply Fin.ext
    match a with
    | ⟨0, _⟩ => show win0_0.index t (0 : Fin 2) * 256 + 1 * p'.val = 256 * t.val + p'.val; omega
    | ⟨1, _⟩ => show win0_0.index t (1 : Fin 2) * 10 + 1 * k.val = k.val; omega
  · intro k j
    show (V m c main_v3 : FVec Ideal S10x16384 .bf16) (((cfg0.win 1).blk t).view.emb (ix2 k j)) = _
    refine Eq.trans (congrArg (V m c main_v3 : FVec Ideal S10x16384 .bf16) ?_) (tgt_at m c k j)
    funext a; apply Fin.ext
    match a with
    | ⟨0, _⟩ => show win0_1.index t (0 : Fin 2) * 10 + 1 * k.val = k.val; omega
    | ⟨1, _⟩ => show win0_1.index t (1 : Fin 2) * 16384 + 1 * j.val = j.val; omega
  · intro j o
    show (V m c main_v2 : FVec Ideal S16384x64 .bf16) (((cfg0.win 2).blk t).view.emb (ix2 j o)) = _
    refine Eq.trans (congrArg (V m c main_v2 : FVec Ideal S16384x64 .bf16) ?_) (val_at m c j o)
    funext a; apply Fin.ext
    match a with
    | ⟨0, _⟩ => show win0_2.index t (0 : Fin 2) * 16384 + 1 * j.val = j.val; omega
    | ⟨1, _⟩ => show win0_2.index t (1 : Fin 2) * 64 + 1 * o.val = o.val; omega
  · intro o
    show (V m c main_v5 : FVec Ideal S1x64 .f32) (((cfg0.win 3).blk t).view.emb (ix2 (0 : Fin 1) o)) = _
    refine Eq.trans (congrArg (V m c main_v5 : FVec Ideal S1x64 .f32) ?_) (bias_at m c o)
    funext a; apply Fin.ext
    match a with
    | ⟨0, _⟩ => show win0_3.index t (0 : Fin 2) * 1 + 1 * 0 = 0; omega
    | ⟨1, _⟩ => show win0_3.index t (1 : Fin 2) * 64 + 1 * o.val = o.val; omega
  · have r0 : (⟨256 * t.val + p.val, by omega⟩ : Fin 16384) = (((cfg0.win 4).blk t).view.emb (ix2 p q)) 0 :=
      Fin.ext (by show 256 * t.val + p.val = win0_4.index t (0 : Fin 2) * 256 + 1 * p.val; omega)
    have r1 : q = (((cfg0.win 4).blk t).view.emb (ix2 p q)) 1 :=
      Fin.ext (by show q.val = win0_4.index t (1 : Fin 2) * 64 + 1 * q.val; omega)
    exact congrArg₂ (folded (argX m c) (argSrc m c) (argTgt m c) (argW m c) (argB m c)) r0 r1

/-- An index of the result lies in point t's block iff each coordinate lies in the block's range on its axis. -/
theorem mem_blk (t : Fin cfg0.N) (i : S16384x64.Idx) :
    i ∈ ((cfg0.win 4).blk t).view.set ↔ ∀ a : Fin 2, win0_4.index t a * S256x64.size a ≤ (i a).val
      ∧ (i a).val < win0_4.index t a * S256x64.size a + S256x64.size a := by
  show i ∈ ((View.whole main_v6).slice (win0_4.rect t)).set ↔ _
  rw [View.set_slice_whole, Rect.mem_set_unit]
  exact Iff.rfl

/-- Every row of the result lies in the block of the point numbered by the row divided by 256. -/
theorem cover (i : S16384x64.Idx) :
    ∃ t : Fin cfg0.N, (cfg0.win 4).flush t = true ∧ i ∈ ((cfg0.win 4).blk t).view.set := by
  have hN : cfg0.N = 64 := N_0
  have hi0 : (i 0).val < 16384 := (i 0).isLt
  have hi1 : (i 1).val < 64 := (i 1).isLt
  let t : Fin cfg0.N := ⟨(i 0).val / 256, by rw [hN]; omega⟩
  have htv : t.val = (i 0).val / 256 := rfl
  obtain ⟨e00, e01, e10, e11, e20, e21, e30, e31, e40, e41⟩ := idx_facts t
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 64 ≤ (i 1).val ∧ (i 1).val < win0_4.index t (1 : Fin 2) * 64 + 64; omega

/-- After the run the result array is `G`. -/
theorem final (c : Dev nD) : (dats m 0 c).arrAt 4 cfg0.N = G m c :=
  (dats m 0 c).arrAt_eq_of_cover 4 (G m c) (fun t _ => flushed_eq m c t) cover

/-- Every weakly fair execution of the kernel's program ends with the result array at `G` and the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.GraphConv.Kernel

end
-- ==== Proof.RefValue.lean ====
/-
  The reference program, read at an index over the extended reals, is the specification's `unfolded`.

  Each stage of the reference is read at explicit coordinates and identified with the corresponding quantity of
  the specification: the score (a product summed over the embedding axis), its rectification, the row maximum
  (a fold of max from the bottom element), the exponential weights, the row sums, the normalised weights, the
  aggregation of the node features, the product with the transposed weight matrix and the bias.
-/
import proofs.«136184_j455266533808_2_alg».proof.Proof.Gen.ReferenceIdeal.Read
import proofs.«136184_j455266533808_2_alg».proof.Proof.Spec
import proofs.«136184_j455266533808_2_alg».proof.Proof.LibHostMaxForms

noncomputable section

namespace Cert.GraphConv.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.GraphConv

variable (x0 : (⟨S16384x64, .f32⟩ : BufTy).Contents (Elt Ideal)) (x1 : (⟨S16384x10, .f32⟩ : BufTy).Contents (Elt Ideal))
  (x2 : (⟨S10x16384, .f32⟩ : BufTy).Contents (Elt Ideal)) (x3 : (⟨S64x64, .f32⟩ : BufTy).Contents (Elt Ideal))
  (x4 : (⟨S64, .f32⟩ : BufTy).Contents (Elt Ideal))

/-! ## The index maps at coordinates -/

/-- The left operand of the score product at (i, j), term k, is read at (i, k). -/
theorem lidx_v0 (i j : Fin 16384) (k : Fin 10) : lidx_main_v0 (ix2 i j) k = ix2 i k :=
  funext fun a => Fin.ext (by match a with | ⟨0, _⟩ => rfl | ⟨1, _⟩ => rfl)

/-- The right operand of the score product at (i, j), term k, is read at (k, j). -/
theorem ridx_v0 (i j : Fin 16384) (k : Fin 10) : ridx_main_v0 (ix2 i j) k = ix2 k j :=
  funext fun a => Fin.ext (by match a with | ⟨0, _⟩ => rfl | ⟨1, _⟩ => rfl)

/-- The column of row maxima, broadcast along the rows, is read at row i. -/
theorem idx_v5_v6 (i j : Fin 16384) : idx_main_v5 (idx_main_v6 (ix2 i j)) = ix1 i :=
  funext fun a => Fin.ext (by match a with | ⟨0, _⟩ => rfl)

/-- Term k of the row sum at i is read at (i, k). -/
theorem idx_v9 (i k : Fin 16384) : idx_main_v9 (ix1 i) k = ix2 i k :=
  funext fun a => Fin.ext (by match a with | ⟨0, _⟩ => rfl | ⟨1, _⟩ => rfl)

/-- The column of row sums, broadcast along the rows, is read at row i. -/
theorem idx_v10_v11 (i j : Fin 16384) : idx_main_v10 (idx_main_v11 (ix2 i j)) = ix1 i :=
  funext fun a => Fin.ext (by match a with | ⟨0, _⟩ => rfl)

/-- The left operand of the aggregation at (i, f), term k, is read at (i, k). -/
theorem lidx_v13 (i : Fin 16384) (f : Fin 64) (k : Fin 16384) : lidx_main_v13 (ix2 i f) k = ix2 i k :=
  funext fun a => Fin.ext (by match a with | ⟨0, _⟩ => rfl | ⟨1, _⟩ => rfl)

/-- The right operand of the aggregation at (i, f), term k, is read at (k, f). -/
theorem ridx_v13 (i : Fin 16384) (f : Fin 64) (k : Fin 16384) : ridx_main_v13 (ix2 i f) k = ix2 k f :=
  funext fun a => Fin.ext (by match a with | ⟨0, _⟩ => rfl | ⟨1, _⟩ => rfl)

/-- The transpose at (f, o) reads its operand at (o, f). -/
theorem idx_v14 (f o : Fin 64) : idx_main_v14 (ix2 f o) = ix2 o f :=
  funext fun a => Fin.ext (by match a with | ⟨0, _⟩ => rfl | ⟨1, _⟩ => rfl)

/-- The left operand of the linear map at (i, o), term k, is read at (i, k). -/
theorem lidx_v15 (i : Fin 16384) (o k : Fin 64) : lidx_main_v15 (ix2 i o) k = ix2 i k :=
  funext fun a => Fin.ext (by match a with | ⟨0, _⟩ => rfl | ⟨1, _⟩ => rfl)

/-- The right operand of the linear map at (i, o), term k, is read at (k, o). -/
theorem ridx_v15 (i : Fin 16384) (o k : Fin 64) : ridx_main_v15 (ix2 i o) k = ix2 k o :=
  funext fun a => Fin.ext (by match a with | ⟨0, _⟩ => rfl | ⟨1, _⟩ => rfl)

/-- The bias, broadcast along the rows, is read at column o. -/
theorem idx_v16_v17 (i : Fin 16384) (o : Fin 64) : idx_main_v16 (idx_main_v17 (ix2 i o)) = ix1 o :=
  funext fun a => Fin.ext (by match a with | ⟨0, _⟩ => rfl)

/-! ## The stages at coordinates -/

/-- The first product at (i, j) is the score. -/
theorem v0_at (i j : Fin 16384) : val_main_v0 (F := Ideal) x1 x2 (ix2 i j) = score x1 x2 i j := by
  rw [val_main_v0_apply]
  unfold score
  exact Finset.sum_congr rfl fun k _ => by rw [lidx_v0, ridx_v0]

/-- The rectifier's zero, broadcast, is zero at every index. -/
theorem relu_zero_at (y : S16384x16384.Idx) : val_main_call0_v0 (F := Ideal) y = (0 : EReal) := by
  rw [val_main_call0_v0_apply, val_main_call0_cst_apply, Ideal.ofBits_def, Ideal.ofBits_zero_f32]

/-- The rectified product at (i, j) is the rectified score. -/
theorem v1_at (i j : Fin 16384) : val_main_v1 (F := Ideal) x1 x2 (ix2 i j) = act x1 x2 i j := by
  rw [val_main_v1_apply, Ideal.maximumf_def, v0_at, relu_zero_at]
  rfl

/-- The maximum reduced over the columns, at row i, is the row maximum. -/
theorem v2_at (i : Fin 16384) : val_main_v2 (F := Ideal) x1 x2 (ix1 i) = rowMax x1 x2 i := by
  unfold val_main_v2
  rw [hostReduceMax2_last (A := 16384) (B := 16384) _ _ _ (by decide) _ i, val_main_cst_apply, Ideal.ofBits_def,
    ofBits_neg_inf]
  unfold rowMax
  exact congrArg (fun f : Fin 16384 → EReal => (Finset.univ : Finset (Fin 16384)).fold max ⊥ f)
    (funext fun j => v1_at x1 x2 i j)

/-- The guard against an empty row: the maximum with the bottom element changes nothing. -/
theorem v4_at (i : Fin 16384) : val_main_v4 (F := Ideal) x1 x2 (ix1 i) = rowMax x1 x2 i := by
  rw [val_main_v4_apply, Ideal.maximumf_def, val_main_v3_apply, val_main_cst_0_apply, Ideal.ofBits_def, ofBits_neg_inf,
    v2_at]
  exact max_eq_right bot_le

/-- The row maximum broadcast to the matrix, at (i, j). -/
theorem v6_at (i j : Fin 16384) : val_main_v6 (F := Ideal) x1 x2 (ix2 i j) = rowMax x1 x2 i := by
  rw [val_main_v6_apply, val_main_v5_apply, idx_v5_v6, v4_at]

/-- The exponential of the shifted rectified score at (i, j) is the weight. -/
theorem v8_at (i j : Fin 16384) : val_main_v8 (F := Ideal) x1 x2 (ix2 i j) = weight x1 x2 i j := by
  rw [val_main_v8_apply, Ideal.hostUnary_exp_def, val_main_v7_apply, Ideal.subf_def, v1_at, v6_at]
  rfl

/-- The weights summed over the columns, at row i, are the row sum. -/
theorem v9_at (i : Fin 16384) : val_main_v9 (F := Ideal) x1 x2 (ix1 i) = rowSum x1 x2 i := by
  rw [val_main_v9_apply, val_main_cst_1_apply, Ideal.ofBits_def, Ideal.ofBits_zero_f32, zero_add]
  unfold rowSum
  exact Finset.sum_congr rfl fun k _ => by rw [idx_v9, v8_at]

/-- The row sum broadcast to the matrix, at (i, j). -/
theorem v11_at (i j : Fin 16384) : val_main_v11 (F := Ideal) x1 x2 (ix2 i j) = rowSum x1 x2 i := by
  rw [val_main_v11_apply, val_main_v10_apply, idx_v10_v11, v9_at]

/-- The normalised weight at (i, j). -/
theorem v12_at (i j : Fin 16384) :
    val_main_v12 (F := Ideal) x1 x2 (ix2 i j) = Ideal.div (weight x1 x2 i j) (rowSum x1 x2 i) := by
  rw [val_main_v12_apply, Ideal.hostDivf_def, v8_at, v11_at]

/-- The aggregation of the node features by the normalised weights, at (i, f). -/
theorem v13_at (i : Fin 16384) (f : Fin 64) :
    val_main_v13 (F := Ideal) x0 x1 x2 (ix2 i f)
      = ∑ j : Fin 16384, Ideal.div (weight x1 x2 i j) (rowSum x1 x2 i) * x0 (ix2 j f) := by
  rw [val_main_v13_apply]
  exact Finset.sum_congr rfl fun k _ => by rw [lidx_v13, ridx_v13, v12_at]

/-- The transposed weight matrix at (f, o) is the weight matrix at (o, f). -/
theorem v14_at (f o : Fin 64) : val_main_v14 (F := Ideal) x3 (ix2 f o) = x3 (ix2 o f) := by
  rw [val_main_v14_apply, idx_v14]

/-- The linear map applied to the aggregate, at (i, o). -/
theorem v15_at (i : Fin 16384) (o : Fin 64) :
    val_main_v15 (F := Ideal) x0 x1 x2 x3 (ix2 i o)
      = ∑ f : Fin 64, (∑ j : Fin 16384, Ideal.div (weight x1 x2 i j) (rowSum x1 x2 i) * x0 (ix2 j f)) * x3 (ix2 o f) := by
  rw [val_main_v15_apply]
  exact Finset.sum_congr rfl fun k _ => by rw [lidx_v15, ridx_v15, v13_at, v14_at]

/-- The bias broadcast to the matrix, at (i, o). -/
theorem v17_at (i : Fin 16384) (o : Fin 64) : val_main_v17 (F := Ideal) x4 (ix2 i o) = x4 (ix1 o) := by
  rw [val_main_v17_apply, val_main_v16_apply, idx_v16_v17]

/-- The reference's result at (i, o) is the specification's unfolded arrangement. -/
theorem reference_eq_unfolded (i : Fin 16384) (o : Fin 64) :
    Cert.ReferenceIdeal.Read.val_main_v18 (F := Ideal) x0 x1 x2 x3 x4 (ValueIdx.ix2 i o)
      = Cert.GraphConv.unfolded x0 x1 x2 x3 x4 i o := by
  rw [val_main_v18_apply, Ideal.addf_def, v15_at, v17_at]
  rfl

end Cert.GraphConv.Ref

end
-- ==== Proof.FoldLaw.lean ====
/-
  The law joining the two arrangements of the graph convolution.

  When every entry of x, src, tgt and W is a real number, every intermediate quantity is a real number: the
  score is a finite sum of products of reals, its rectification is a real, the row maximum is attained (the row
  is not empty) and so is a real, the weights are exponentials of reals and hence positive reals, and the row
  normaliser is a positive real, in particular nonzero.  Division by a nonzero real is multiplication by its
  reciprocal, and the two arrangements then differ by distributivity and an exchange of two finite sums:
      (sum_j p_j * sum_f X_jf * W_f) * (1/l) = sum_f (sum_j (p_j * (1/l)) * X_jf) * W_f.
-/
import proofs.«136184_j455266533808_2_alg».proof.Proof.Spec

noncomputable section

namespace Cert.GraphConv

open Idealize.ShloMosaic Idealize.ShloMosaic.ValueIdx

/-- A finite sum of coerced reals is the coerced sum. -/
theorem coe_sum_real {ι : Type*} (s : Finset ι) (f : ι → ℝ) :
    (∑ a ∈ s, (f a : EReal)) = ((∑ a ∈ s, f a : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The exchange of sums in the reals: scaling an aggregate of projected rows by c is projecting the
    aggregate of the rows with scaled weights. -/
theorem fold_law_real {J Fd : Type*} [Fintype J] [Fintype Fd] (p : J → ℝ) (X : J → Fd → ℝ) (Wo : Fd → ℝ)
    (c : ℝ) :
    (∑ j, p j * ∑ f, X j f * Wo f) * c = ∑ f, (∑ j, p j * c * X j f) * Wo f := by
  rw [Finset.sum_mul]
  have hR : ∀ f, (∑ j, p j * c * X j f) * Wo f = ∑ j, p j * c * X j f * Wo f := fun f => Finset.sum_mul _ _ _
  rw [Finset.sum_congr rfl fun f _ => hR f, Finset.sum_comm]
  refine Finset.sum_congr rfl fun j _ => ?_
  rw [Finset.mul_sum, Finset.sum_mul]
  refine Finset.sum_congr rfl fun f _ => ?_
  ring

/-- The same law on the extended reals, for real-valued families and a nonzero real normaliser, with the
    divisions as they stand in the two arrangements. -/
theorem fold_law_ereal {J Fd : Type*} [Fintype J] [Fintype Fd] (p : J → ℝ) (X : J → Fd → ℝ) (Wo : Fd → ℝ)
    (l : ℝ) (hl : l ≠ 0) :
    Ideal.div (∑ j, (p j : EReal) * ∑ f, (X j f : EReal) * (Wo f : EReal)) (l : EReal)
      = ∑ f, (∑ j, Ideal.div (p j : EReal) (l : EReal) * (X j f : EReal)) * (Wo f : EReal) := by
  have hL : (∑ j, (p j : EReal) * ∑ f, (X j f : EReal) * (Wo f : EReal))
      = ((∑ j, p j * ∑ f, X j f * Wo f : ℝ) : EReal) := by
    rw [← coe_sum_real]
    refine Finset.sum_congr rfl fun j _ => ?_
    rw [EReal.coe_mul, ← coe_sum_real]
    refine congrArg _ (Finset.sum_congr rfl fun f _ => ?_)
    rw [EReal.coe_mul]
  have hR : ∀ f, (∑ j, Ideal.div (p j : EReal) (l : EReal) * (X j f : EReal)) * (Wo f : EReal)
      = (((∑ j, p j * (1 / l) * X j f) * Wo f : ℝ) : EReal) := by
    intro f
    rw [EReal.coe_mul, ← coe_sum_real]
    refine congrArg (· * (Wo f : EReal)) (Finset.sum_congr rfl fun j _ => ?_)
    rw [Ideal.div_coe hl, EReal.coe_mul, EReal.coe_mul]
  rw [hL, Ideal.div_coe hl, ← EReal.coe_mul, Finset.sum_congr rfl fun f _ => hR f, coe_sum_real,
    fold_law_real]

/-- The maximum of a nonempty finite family of reals, folded from the bottom element, is a real. -/
theorem fold_max_real {J : Type*} [Fintype J] [Nonempty J] (a : J → ℝ) :
    ∃ m : ℝ, (Finset.univ : Finset J).fold max ⊥ (fun j => (a j : EReal)) = (m : EReal) := by
  obtain ⟨j0⟩ := ‹Nonempty J›
  have hbot : (Finset.univ : Finset J).fold max ⊥ (fun j => (a j : EReal)) ≠ ⊥ := by
    have h : (a j0 : EReal) ≤ (Finset.univ : Finset J).fold max ⊥ (fun j => (a j : EReal)) :=
      (Finset.le_fold_max _).2 (Or.inr ⟨j0, Finset.mem_univ _, le_refl _⟩)
    exact ne_of_gt (lt_of_lt_of_le (EReal.bot_lt_coe _) h)
  have htop : (Finset.univ : Finset J).fold max ⊥ (fun j => (a j : EReal)) ≠ ⊤ :=
    ne_of_lt ((Finset.fold_max_lt _).2 ⟨bot_lt_top, fun j _ => EReal.coe_lt_top _⟩)
  exact ⟨_, (EReal.coe_toReal htop hbot).symm⟩

/-- With real source and target embeddings the score is a real. -/
theorem score_real (src : Mat 16384 10) (tgt : Mat 10 16384)
    (hs : ∀ i, ∃ r : ℝ, src i = (r : EReal)) (ht : ∀ i, ∃ r : ℝ, tgt i = (r : EReal)) (i j : Fin 16384) :
    ∃ r : ℝ, score src tgt i j = (r : EReal) := by
  choose sr hsr using hs
  choose tr htr using ht
  refine ⟨∑ k : Fin 10, sr (ix2 i k) * tr (ix2 k j), ?_⟩
  rw [score, ← coe_sum_real]
  refine Finset.sum_congr rfl fun k _ => ?_
  rw [hsr, htr, EReal.coe_mul]

/-- With real embeddings the rectified score is a real. -/
theorem act_real (src : Mat 16384 10) (tgt : Mat 10 16384)
    (hs : ∀ i, ∃ r : ℝ, src i = (r : EReal)) (ht : ∀ i, ∃ r : ℝ, tgt i = (r : EReal)) (i j : Fin 16384) :
    ∃ r : ℝ, act src tgt i j = (r : EReal) := by
  obtain ⟨r, hr⟩ := score_real src tgt hs ht i j
  refine ⟨max r 0, ?_⟩
  rw [act, hr, ← EReal.coe_zero]
  exact (EReal.coe_strictMono.monotone.map_max).symm

/-- With real embeddings every weight of a row is a positive real. -/
theorem weight_real (src : Mat 16384 10) (tgt : Mat 10 16384)
    (hs : ∀ i, ∃ r : ℝ, src i = (r : EReal)) (ht : ∀ i, ∃ r : ℝ, tgt i = (r : EReal)) (i : Fin 16384) :
    ∃ p : Fin 16384 → ℝ, (∀ j, weight src tgt i j = (p j : EReal)) ∧ ∀ j, 0 < p j := by
  choose a ha using fun j => act_real src tgt hs ht i j
  haveI : Nonempty (Fin 16384) := ⟨⟨0, by norm_num⟩⟩
  obtain ⟨m, hm⟩ := fold_max_real a
  have hmax : rowMax src tgt i = (m : EReal) := by
    have hfun : (fun j => act src tgt i j) = fun j => (a j : EReal) := funext ha
    rw [rowMax, hfun, hm]
  refine ⟨fun j => Real.exp (a j - m), fun j => ?_, fun j => Real.exp_pos _⟩
  rw [weight, ha, hmax, ← EReal.coe_sub, Ideal.exp_coe]

/-- The two arrangements agree on real inputs. -/
theorem folded_eq_unfolded (x : Mat 16384 64) (src : Mat 16384 10) (tgt : Mat 10 16384) (W : Mat 64 64) (b : Vc 64)
    (hx : ∀ i, ∃ r : ℝ, x i = (r : EReal)) (hs : ∀ i, ∃ r : ℝ, src i = (r : EReal))
    (ht : ∀ i, ∃ r : ℝ, tgt i = (r : EReal)) (hW : ∀ i, ∃ r : ℝ, W i = (r : EReal))
    (i : Fin 16384) (o : Fin 64) : folded x src tgt W b i o = unfolded x src tgt W b i o := by
  obtain ⟨p, hp, hpos⟩ := weight_real src tgt hs ht i
  choose xr hxr using hx
  choose Wr hWr using hW
  haveI : Nonempty (Fin 16384) := ⟨⟨0, by norm_num⟩⟩
  have hl : rowSum src tgt i = ((∑ j, p j : ℝ) : EReal) := by
    rw [rowSum, ← coe_sum_real]
    exact Finset.sum_congr rfl fun j _ => hp j
  have hl0 : (∑ j, p j : ℝ) ≠ 0 := ne_of_gt (Finset.sum_pos (fun j _ => hpos j) Finset.univ_nonempty)
  have hproj : ∀ j, proj x W j o = ∑ f : Fin 64, (xr (ix2 j f) : EReal) * (Wr (ix2 o f) : EReal) := by
    intro j
    rw [proj]
    refine Finset.sum_congr rfl fun f _ => ?_
    rw [hxr, hWr]
  have hnum : (∑ j : Fin 16384, weight src tgt i j * proj x W j o)
      = ∑ j : Fin 16384, (p j : EReal) * ∑ f : Fin 64, (xr (ix2 j f) : EReal) * (Wr (ix2 o f) : EReal) :=
    Finset.sum_congr rfl fun j _ => by rw [hp, hproj]
  have hrhs : (∑ f : Fin 64, (∑ j : Fin 16384, Ideal.div (weight src tgt i j) (rowSum src tgt i) * x (ix2 j f))
        * W (ix2 o f))
      = ∑ f : Fin 64, (∑ j : Fin 16384, Ideal.div (p j : EReal) ((∑ j, p j : ℝ) : EReal)
          * (xr (ix2 j f) : EReal)) * (Wr (ix2 o f) : EReal) := by
    refine Finset.sum_congr rfl fun f _ => ?_
    rw [hWr, hl]
    refine congrArg (· * (Wr (ix2 o f) : EReal)) (Finset.sum_congr rfl fun j _ => ?_)
    rw [hp, hxr]
  rw [folded, unfolded, hnum, hrhs, hl,
    fold_law_ereal p (fun j f => xr (ix2 j f)) (fun f => Wr (ix2 o f)) _ hl0]

end Cert.GraphConv

end
-- ==== Proof.FiniteInputs.lean ====
/-
  Every entry of the four matrix arguments is a real number.

  The certificate's precondition says, of each float argument array a, that the conjunction over all its
  entries of |a i| < +∞ holds, and joins the five statements by "and".  Over the extended reals |x| is
  max x (-x), and max x (-x) < ⊤ excludes both x = ⊤ and x = ⊥, so x is the image of a real number.
  This file reads that conclusion off the precondition for the node features x (argument 0), the source
  embeddings (argument 1), the target embeddings (argument 2) and the weight matrix W (argument 3).
-/
import proofs.«136184_j455266533808_2_alg».proof.Defs
import proofs.«136184_j455266533808_2_alg».proof.Proof.Gen.Pre_finite_inputs
import Idealize.ShloMosaic.Lib.ReduceAll
import Idealize.ShloMosaic.Lib.ValueIdx

noncomputable section

namespace Cert.GraphConv.Finite

open Idealize.ShloMosaic Idealize.SL.Sem

/-- The scalar shape has exactly one index. -/
instance : Subsingleton Cert.Pre_finite_inputs.S_.Idx := ⟨fun _ _ => funext fun d => d.elim0⟩

/-- An extended real x with max x (-x) < +∞ (the comparison answering 1) is a real number: the two
    infinities both have max x (-x) = ⊤. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If the conjunction over all indices of "|a i| < +∞" is 1, every entry of a is a real number.  The index i stays a
    variable: the conjunction is read at i, never evaluated. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant Cert.Pre_finite_inputs.S_ .f32 0x7F800000#32)))
          (constantI Cert.Pre_finite_inputs.S_ 1 1#1) hr hu ValueIdx.ix0 = 1#1)
    (i : s.Idx) : ∃ r : ℝ, a i = (r : EReal) :=
  real_of_abs_lt (a i) (Host.reduce_andi_all _ _ hr hu ValueIdx.ix0 e i)

/-- Under the precondition, on every device, every entry of x, of the source and target embeddings and of W is a real
    number. -/
theorem real_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h := congrFun (hpre c) ValueIdx.ix0
  dsimp only [Cert.Pre_finite_inputs.fn, Cert.Pre_finite_inputs.fn_part1] at h
  -- the five conjunctions, joined left to right: ((((a0 ∧ a1) ∧ a2) ∧ a3) ∧ a4)
  obtain ⟨h0123, _⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨fun i => real_of_all _ _ _ _ h0 i, fun i => real_of_all _ _ _ _ h1 i,
    fun i => real_of_all _ _ _ _ h2 i, fun i => real_of_all _ _ _ _ h3 i⟩

end Cert.GraphConv.Finite

end
-- ==== Proof.lean ====
/-
  A graph convolution with a learned adjacency, computed two ways, gives one result over the extended reals.

  Both programs form the scores of every source row against every target column, rectify them, and turn each row
  into softmax weights (the exponential of the rectified score less the row's maximum, divided by the row's sum).
  One program aggregates the node features x by the normalised weights and then applies Wᵀ and the bias.  The other
  applies Wᵀ to x first, aggregates those values by the UNnormalised weights, divides each row once by its sum and
  adds the bias.  With every entry of x, of the two embeddings and of W a real number, the scores, their maxima and
  the weights are real, every row sum is a positive real, and the two arrangements agree by moving the finite sums and
  the division through each other (FoldLaw.lean).  The precondition supplies exactly that: every input is finite.

  The tiled program's result is read block by block (KernelValue.lean over BlockBody.lean): grid point t computes rows
  256 t … 256 t + 255, and the 64 blocks tile the 16384 rows.  The other program's result is read one operation at a time
  (RefValue.lean).  The narrowing of the matrix operands to a shorter float format is the identity on extended reals,
  so nothing is left of it here, and no operation was rewritten between the tiled program and its reading over the
  extended reals.
-/
import proofs.«136184_j455266533808_2_alg».proof.Defs
import proofs.«136184_j455266533808_2_alg».proof.Proof.Gen.Kernel
import proofs.«136184_j455266533808_2_alg».proof.Proof.Gen.Kernel.Skeleton
import proofs.«136184_j455266533808_2_alg».proof.Proof.Gen.Kernel.Launch
import proofs.«136184_j455266533808_2_alg».proof.Proof.Gen.Kernel.Points
import proofs.«136184_j455266533808_2_alg».proof.Proof.Gen.Kernel.Frame
import proofs.«136184_j455266533808_2_alg».proof.Proof.Gen.KernelIdeal
import proofs.«136184_j455266533808_2_alg».proof.Proof.Gen.KernelIdeal.Skeleton
import proofs.«136184_j455266533808_2_alg».proof.Proof.Gen.KernelIdeal.Launch
import proofs.«136184_j455266533808_2_alg».proof.Proof.Gen.KernelIdeal.Points
import proofs.«136184_j455266533808_2_alg».proof.Proof.Gen.KernelIdeal.Frame
import proofs.«136184_j455266533808_2_alg».proof.Proof.Gen.ReferenceIdeal
import proofs.«136184_j455266533808_2_alg».proof.Proof.Gen.Pre_finite_inputs
import proofs.«136184_j455266533808_2_alg».proof.Proof.Gen.KernelIdeal.Value
import proofs.«136184_j455266533808_2_alg».proof.Proof.Gen.ReferenceIdeal.Run
import proofs.«136184_j455266533808_2_alg».proof.Proof.Gen.ReferenceIdeal.Read
import proofs.«136184_j455266533808_2_alg».proof.Proof.KernelValue
import proofs.«136184_j455266533808_2_alg».proof.Proof.RefValue
import proofs.«136184_j455266533808_2_alg».proof.Proof.FoldLaw
import proofs.«136184_j455266533808_2_alg».proof.Proof.FiniteInputs
import Idealize.ShloMosaic.Adequacy
import Idealize.ShloMosaic.Init

noncomputable section

namespace Cert.Proof

open Idealize.ShloMosaic Idealize.SL.Sem Idealize.ShloMosaic.ValueIdx

/-- The tiled program terminates without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The plain program's run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the tiled program was rewritten for its reading over the extended reals. -/
theorem preserves : Cert.preserves_Kernel_KernelIdeal := trivial

/-- From memories that agree on finite arguments both programs end with the same result: the tiled one with the
    folded arrangement, the plain one with the unfolded arrangement, and the two are equal entry by entry. -/
theorem algebraic : Cert.algebraic_KernelIdeal_ReferenceIdeal := by
  intro m ρ m' ρ' hpre hagree
  refine ⟨fun c => Cert.GraphConv.Kernel.G m c, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨hx, hs, ht, hW⟩ := Cert.GraphConv.Finite.real_of_pre m hpre c
  rw [Cert.ReferenceIdeal.Read.val_main_v18_eq, a0, a1, a2, a3, a4]
  funext i
  obtain ⟨p, q, rfl⟩ : ∃ (p : Fin 16384) (q : Fin 64), i = ix2 p q := ⟨i 0, i 1, eq_ix2 i⟩
  refine (Cert.GraphConv.Ref.reference_eq_unfolded _ _ _ _ _ p q).trans ?_
  exact (Cert.GraphConv.folded_eq_unfolded _ _ _ _ _ hx hs ht hW p q).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
